-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1x1 : Shape := ⟨2, ![1, 1]⟩
abbrev S5000x1 : Shape := ⟨2, ![5000, 1]⟩

abbrev nBuf : Space → Nat
  | .hbm => 70
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S1x1, .f32⟩
  | .hbm, ⟨68, _⟩ => ⟨S100000x1, .f32⟩
  | .hbm, ⟨69, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its RESULT named: every weakly fair execution of @main ends, nothing
  faulting, with the result array at what the last host stretch leaves — the boundary contents after the second
  region and the closing reshape — and every argument array as launched.  @main is five segments (host operations,
  the first layer's region, host operations, the second layer's region with the classifier, the closing reshape);
  the thread state carried across them holds every unscoped buffer at the boundary's contents, so the final memory
  is read at the result buffer exactly as it is read at each argument.
-/
import proofs.«133086_j77498389889594_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- @main runs; the result array ends at the last boundary's contents, the arguments as launched. -/
theorem run : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.Payload.lean ====
/-
  What the two kernel bodies store, read at an index over the extended reals.

  The first body stores  max (agg·Wl + x·Wr + b) 0  of its [5000,64] row blocks: at (p, q) the two matrix
  products into a zero accumulator are the sums  Σ_k agg[p,k]·Wl[k,q]  and  Σ_k x[p,k]·Wr[k,q]  (the roundings to
  bf16 on the way in are the identity on extended reals), the bias row [1,64] is read at its column q.
  The second body computes the same hidden rows h and stores  h·Wc + bc : at (p, 0) the sum  Σ_j h[p,j]·Wc[j,0]
  plus the one bias entry.
-/
import proofs.«133086_j77498389889594_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-! ## The blocks' matrix products as sums over the contracted axis -/

theorem d64_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d64_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem d64_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem d64_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem d1_l0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem d1_l1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem d1_r0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem d1_r1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A [5000,64] × [64,64] product into a zero accumulator, at (p, q). -/
theorem mm64_apply (l : FVec Ideal S5000x64 .bf16) (r : FVec Ideal S64x64 .bf16) (p : Fin 5000) (q : Fin 64) :
    matmul (F := Ideal) dot_S5000x64_S64x64_S5000x64_1_0_0_1_n_n none l r (constant S5000x64 .f32 0x00000000#32) (ix2 p q)
      = ∑ k : Fin 64, l (ix2 p k) * r (ix2 k q) := by
  show FloatOps.matmul dot_S5000x64_S64x64_S5000x64_1_0_0_1_n_n none l r (constant S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact d64_l0 _ _
    | ⟨1, _⟩ => exact (d64_l1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (d64_r0 _ _).trans hk
    | ⟨1, _⟩ => exact d64_r1 _ _)
  rw [el, er]

/-- A [5000,64] × [64,1] product into a zero accumulator, at (p, q). -/
theorem mm1_apply (l : FVec Ideal S5000x64 .bf16) (r : FVec Ideal S64x1 .bf16) (p : Fin 5000) (q : Fin 1) :
    matmul (F := Ideal) dot_S5000x64_S64x1_S5000x1_1_0_0_1_n_n none l r (constant S5000x1 .f32 0x00000000#32) (ix2 p q)
      = ∑ k : Fin 64, l (ix2 p k) * r (ix2 k q) := by
  show FloatOps.matmul dot_S5000x64_S64x1_S5000x1_1_0_0_1_n_n none l r (constant S5000x1 .f32 0x00000000#32) (ix2 p q) = _
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun a => Fin.ext (by
    match a with
    | ⟨0, _⟩ => exact d1_l0 _ _
    | ⟨1, _⟩ => exact (d1_l1 _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun a => Fin.ext (by
    match a with
    | ⟨0, _⟩ => exact (d1_r0 _ _).trans hk
    | ⟨1, _⟩ => exact d1_r1 _ _)
  rw [el, er]

/-! ## The stored values at an index -/

/-- The hidden row block both bodies compute, at (p, q). -/
def hiddenAt (x0 x1 : Vec Ideal S5000x64 .f32) (x2 x3 : Vec Ideal S64x64 .f32) (x4 : Vec Ideal S1x64 .f32) (p : Fin 5000) (q : Fin 64) : EReal :=
  max ((∑ k : Fin 64, x0 (ix2 p k) * x2 (ix2 k q)) + (∑ k : Fin 64, x1 (ix2 p k) * x3 (ix2 k q)) + x4 (ix2 (0 : Fin 1) q)) 0

/-- The first body's store at (p, q). -/
theorem k0_pay1_apply (x0 x1 : Vec Ideal S5000x64 .f32) (x2 x3 : Vec Ideal S64x64 .f32) (x4 : Vec Ideal S1x64 .f32) (p : Fin 5000) (q : Fin 64) :
    k0_pay1 (F := Ideal) x0 x1 x2 x3 x4 (ix2 p q) = hiddenAt x0 x1 x2 x3 x4 p q := by
  unfold k0_pay1 hiddenAt
  simp only [shapeCast_self]
  rw [maximumf_apply, addf_apply, addf_apply, mm64_apply, mm64_apply, broadcastTo_1b_ab_apply]
  simp only [truncf_apply, broadcast_apply]
  refine congrArg (max _) ?_
  show Ideal.ofBits .f32 0x00000000#32 = 0
  exact Ideal.ofBits_zero_f32

/-- The second body's store at (p, q): the classifier row of the hidden block. -/
theorem k1_pay1_apply (x0 x1 : Vec Ideal S5000x64 .f32) (x2 x3 : Vec Ideal S64x64 .f32) (x4 : Vec Ideal S1x64 .f32)
    (x5 : Vec Ideal S64x1 .f32) (x6 : Vec Ideal S1x1 .f32) (p : Fin 5000) (q : Fin 1) :
    k1_pay1 (F := Ideal) x0 x1 x2 x3 x4 x5 x6 (ix2 p q)
      = (∑ j : Fin 64, hiddenAt x0 x1 x2 x3 x4 p j * x5 (ix2 j q)) + x6 (ix2 (0 : Fin 1) (0 : Fin 1)) := by
  unfold k1_pay1
  simp only [shapeCast_self]
  rw [addf_apply, mm1_apply]
  refine congrArg₂ (· + ·) (Finset.sum_congr rfl fun j _ => ?_) ?_
  · rw [truncf_apply, truncf_apply, maximumf_apply, addf_apply, addf_apply, mm64_apply, mm64_apply, broadcastTo_1b_ab_apply]
    simp only [truncf_apply, broadcast_apply]
    unfold hiddenAt
    refine congrArg (· * _) (congrArg (max _) ?_)
    show Ideal.ofBits .f32 0x00000000#32 = 0
    exact Ideal.ofBits_zero_f32
  · refine broadcastTo_apply x6 broadcasts_S1x1_S5000x1 (ix2 p q) (ix2 (0 : Fin 1) (0 : Fin 1)) fun a => ?_
    match a with
    | ⟨0, _⟩ => rfl
    | ⟨1, _⟩ => rfl

end Cert.KernelIdeal.Pay

end
-- ==== Proof.RefSpec.lean ====
/-
  One SAGE layer and the classifier as whole-array functions, written with the reference's own host operations,
  and each read at an index over the extended reals.

  A layer is  relu (agg · Wl + x · Wr + b)  on [100000, 64] rows; the classifier is  h · Wc + bc  on [100000, 1].
  At an index (r, q) the layer is  max ((Σ_k agg[r,k]·Wl[k,q]) + (Σ_k x[r,k]·Wr[k,q]) + b[q]) 0 :  the host's
  dot_general with one contracted axis is that sum, the two broadcasts of the bias read b at the column.
  The reference's stages (the generated read-at-an-index module names them) are these functions of each other.
-/
import proofs.«133086_j77498389889594_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Sage

open Cert.ReferenceIdeal Cert.ReferenceIdeal.Gen Idealize.ShloMosaic Idealize.ShloMosaic.TcCoe Idealize.ShloMosaic.ValueIdx

variable {F : FTy → Type} [FloatOps F]

/-- relu (agg · Wl + x · Wr + b), every row at once, in the reference's operations. -/
def layerRef (agg x : (⟨S100000x64, .f32⟩ : BufTy).Contents (Elt F)) (wl wr : (⟨S64x64, .f32⟩ : BufTy).Contents (Elt F))
    (b : (⟨S64, .f32⟩ : BufTy).Contents (Elt F)) : (⟨S100000x64, .f32⟩ : BufTy).Contents (Elt F) :=
  maximumf (addf (addf (Host.dotGeneral dot_S100000x64_S64x64_S100000x64_1_0_0_1_n_n none agg wl)
        (Host.dotGeneral dot_S100000x64_S64x64_S100000x64_1_0_0_1_n_n none x wr))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- h · Wc + bc, every row at once, in the reference's operations. -/
def clsRef (h : (⟨S100000x64, .f32⟩ : BufTy).Contents (Elt F)) (wc : (⟨S64x1, .f32⟩ : BufTy).Contents (Elt F))
    (bc : (⟨S1, .f32⟩ : BufTy).Contents (Elt F)) : (⟨S100000x1, .f32⟩ : BufTy).Contents (Elt F) :=
  addf (Host.dotGeneral dot_S100000x64_S64x1_S100000x1_1_0_0_1_n_n none h wc)
    (broadcastInDim S100000x1 ![0, 1] bcast_S1x1_S100000x1_0_1 (broadcastInDim S1x1 ![1] bcast_S1_S1x1_1 bc))

/-! ## The reference's stages are these functions -/

theorem v29_eq (x0 : (⟨S100000x64, .f32⟩ : BufTy).Contents (Elt F)) (x1 : (⟨S2x1600000, .i32⟩ : BufTy).Contents (Elt F))
    (x2 x3 : (⟨S64x64, .f32⟩ : BufTy).Contents (Elt F)) (x4 : (⟨S64, .f32⟩ : BufTy).Contents (Elt F)) :
    Read.val_main_v29 (F := F) x0 x1 x2 x3 x4 = layerRef (Read.val_main_v22 (F := F) x0 x1) x0 x2 x3 x4 := rfl

theorem v55_eq (x0 : (⟨S100000x64, .f32⟩ : BufTy).Contents (Elt F)) (x1 : (⟨S2x1600000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F)) :
    Read.val_main_v55 (F := F) x0 x1 x2 x3 x4 x5 x6 x7
      = layerRef (Read.val_main_v48 (F := F) x0 x1 x2 x3 x4) (Read.val_main_v29 (F := F) x0 x1 x2 x3 x4) x5 x6 x7 := rfl

theorem v59_eq (x0 : (⟨S100000x64, .f32⟩ : BufTy).Contents (Elt F)) (x1 : (⟨S2x1600000, .i32⟩ : BufTy).Contents (Elt F))
    (x2 x3 : (⟨S64x64, .f32⟩ : BufTy).Contents (Elt F)) (x4 : (⟨S64, .f32⟩ : BufTy).Contents (Elt F))
    (x5 x6 : (⟨S64x64, .f32⟩ : BufTy).Contents (Elt F)) (x7 : (⟨S64, .f32⟩ : BufTy).Contents (Elt F))
    (x8 : (⟨S64x1, .f32⟩ : BufTy).Contents (Elt F)) (x9 : (⟨S1, .f32⟩ : BufTy).Contents (Elt F)) :
    Read.val_main_v59 (F := F) x0 x1 x2 x3 x4 x5 x6 x7 x8 x9
      = clsRef (Read.val_main_v55 (F := F) x0 x1 x2 x3 x4 x5 x6 x7) x8 x9 := rfl

/-! ## Read at an index, over the extended reals -/

/-- The host's [100000,64] × [64,64] product at (p, q) is the sum over the contracted axis. -/
theorem dot64_apply (l : FVec Ideal S100000x64 .f32) (r : FVec Ideal S64x64 .f32)
    (p : Fin 100000) (q : Fin 64) :
    Host.dotGeneral (F := Ideal) dot_S100000x64_S64x64_S100000x64_1_0_0_1_n_n none l r (ix2 p q)
      = ∑ k : Fin 64, l (ix2 p k) * r (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 p q) ((ValueIdx.contrEquiv1 dot_S100000x64_S64x64_S100000x64_1_0_0_1_n_n 64 rfl rfl).symm k) = ix2 p k := funext fun a => Fin.ext (by
    match a with
    | ⟨0, _⟩ => exact Read.lhs_main_v23_0 _ _
    | ⟨1, _⟩ => exact (Read.lhs_main_v23_1 _ _).trans hk)
  have er : dot_S100000x64_S64x64_S100000x64_1_0_0_1_n_n.rhsIdx (ix2 p q) ((ValueIdx.contrEquiv1 dot_S100000x64_S64x64_S100000x64_1_0_0_1_n_n 64 rfl rfl).symm k) = ix2 k q := funext fun a => Fin.ext (by
    match a with
    | ⟨0, _⟩ => exact (Read.rhs_main_v23_0 _ _).trans hk
    | ⟨1, _⟩ => exact Read.rhs_main_v23_1 _ _)
  rw [el, er]

/-- The host's [100000,64] × [64,1] product at (p, 0) is the sum over the contracted axis. -/
theorem dot1_apply (l : FVec Ideal S100000x64 .f32) (r : FVec Ideal S64x1 .f32)
    (p : Fin 100000) (q : Fin 1) :
    Host.dotGeneral (F := Ideal) dot_S100000x64_S64x1_S100000x1_1_0_0_1_n_n none l r (ix2 p q)
      = ∑ k : Fin 64, l (ix2 p k) * r (ix2 k q) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx (ix2 p q) ((ValueIdx.contrEquiv1 dot_S100000x64_S64x1_S100000x1_1_0_0_1_n_n 64 rfl rfl).symm k) = ix2 p k := funext fun a => Fin.ext (by
    match a with
    | ⟨0, _⟩ => exact Read.lhs_main_v56_0 _ _
    | ⟨1, _⟩ => exact (Read.lhs_main_v56_1 _ _).trans hk)
  have er : dot_S100000x64_S64x1_S100000x1_1_0_0_1_n_n.rhsIdx (ix2 p q) ((ValueIdx.contrEquiv1 dot_S100000x64_S64x1_S100000x1_1_0_0_1_n_n 64 rfl rfl).symm k) = ix2 k q := funext fun a => Fin.ext (by
    match a with
    | ⟨0, _⟩ => exact (Read.rhs_main_v56_0 _ _).trans hk
    | ⟨1, _⟩ => exact Read.rhs_main_v56_1 _ _)
  rw [el, er]

/-- The bias row [64] broadcast to [1,64] and then to [100000,64] reads, at (p, q), b[q]. -/
theorem biasRow_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ bcast_S1x64_S100000x64_0_1 _ (ix2 p q) (ix2 (0 : Fin 1) q) (fun a => ?_)).trans ?_
  · match a with
    | ⟨0, _⟩ => rfl
    | ⟨1, _⟩ => rfl
  · refine broadcastInDim_apply _ bcast_S64_S1x64_1 b (ix2 (0 : Fin 1) q) (ix1 q) (fun a => ?_)
    match a with
    | ⟨0, _⟩ => rfl

/-- The classifier's bias [1] broadcast to [1,1] and then to [100000,1] reads bc[0] everywhere. -/
theorem biasOne_apply (bc : FVec Ideal S1 .f32) (p : Fin 100000) (q : Fin 1) :
    broadcastInDim S100000x1 ![0, 1] bcast_S1x1_S100000x1_0_1 (broadcastInDim S1x1 ![1] bcast_S1_S1x1_1 bc) (ix2 p q) = bc (ix1 (0 : Fin 1)) := by
  refine (broadcastInDim_apply _ bcast_S1x1_S100000x1_0_1 _ (ix2 p q) (ix2 (0 : Fin 1) (0 : Fin 1)) (fun a => ?_)).trans ?_
  · match a with
    | ⟨0, _⟩ => rfl
    | ⟨1, _⟩ => rfl
  · refine broadcastInDim_apply _ bcast_S1_S1x1_1 bc (ix2 (0 : Fin 1) (0 : Fin 1)) (ix1 (0 : Fin 1)) (fun a => ?_)
    match a with
    | ⟨0, _⟩ => rfl

/-- A layer at (p, q): max (Σ_k agg[p,k]·Wl[k,q] + Σ_k x[p,k]·Wr[k,q] + b[q]) 0. -/
theorem layerRef_apply (agg x : FVec Ideal S100000x64 .f32) (wl wr : FVec Ideal S64x64 .f32)
    (b : FVec Ideal S64 .f32) (p : Fin 100000) (q : Fin 64) :
    layerRef (F := Ideal) agg x wl wr b (ix2 p q)
      = max ((∑ k : Fin 64, agg (ix2 p k) * wl (ix2 k q)) + (∑ k : Fin 64, x (ix2 p k) * wr (ix2 k q)) + b (ix1 q)) (0 : EReal) := by
  unfold layerRef
  rw [maximumf_apply, addf_apply, addf_apply, dot64_apply, dot64_apply, biasRow_apply]
  refine congrArg (max _) ?_
  show Ideal.ofBits .f32 0x00000000#32 = 0
  exact Ideal.ofBits_zero_f32

/-- The classifier at (p, 0): Σ_k h[p,k]·Wc[k,0] + bc[0]. -/
theorem clsRef_apply (h : FVec Ideal S100000x64 .f32) (wc : FVec Ideal S64x1 .f32)
    (bc : FVec Ideal S1 .f32) (p : Fin 100000) (q : Fin 1) :
    clsRef (F := Ideal) h wc bc (ix2 p q) = (∑ k : Fin 64, h (ix2 p k) * wc (ix2 k q)) + bc (ix1 (0 : Fin 1)) := by
  unfold clsRef
  rw [addf_apply, dot1_apply, biasOne_apply]

end Cert.Sage

end
-- ==== Proof.Region0.lean ====
/-
  The first layer's region: what its output array holds after the run, as ONE function of the arrays the region
  finds — whatever they are.

  The grid has 20 points; point t reads rows 5000·t … 5000·t + 4999 of the aggregate and of the features, the two
  whole [64,64] weights and the whole bias row, and writes back rows 5000·t … of the output.  So the block written
  at point t, at (p, q), is the layer's value at row 5000·t + p and column q: the row blocks' sums over the
  contracted axis are the whole arrays' sums at that row.  The 20 row blocks tile the 100000 rows, hence the output
  array ends at the layer's function of the whole arrays, in the reference's spelling.
-/
import proofs.«133086_j77498389889594_1_alg».proof.Proof.Gen.KernelIdeal.Frame
import proofs.«133086_j77498389889594_1_alg».proof.Proof.Payload
import proofs.«133086_j77498389889594_1_alg».proof.Proof.RefSpec

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the whole-array windows at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := lt_of_lt_of_eq t.isLt N_0

/-- Row p of point t's block is row 5000·t + p of the array. -/
abbrev row (t : Fin cfg0.N) (p : Fin 5000) : Fin 100000 := ⟨t.val * 5000 + p.val, by have := t_lt t; have := p.isLt; omega⟩

theorem iblk_agg (c : Dev nD) (t : Fin cfg0.N) (p : Fin 5000) (k : Fin 64) :
    (iblk0 V c 0 t : Vec Ideal S5000x64 .f32) (ix2 p k) = (V c main_v22 : S100000x64.Idx → EReal) (ix2 (row t p) k) := by
  obtain ⟨e0, e1, -⟩ := idx_facts t
  unfold iblk0
  rw [View.read_apply]
  show V c main_v22 _ = V c main_v22 _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

theorem iblk_x (c : Dev nD) (t : Fin cfg0.N) (p : Fin 5000) (k : Fin 64) :
    (iblk0 V c 1 t : Vec Ideal S5000x64 .f32) (ix2 p k) = (V c main_arg0 : S100000x64.Idx → EReal) (ix2 (row t p) k) := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

theorem iblk_wl (c : Dev nD) (t : Fin cfg0.N) (k q : Fin 64) :
    (iblk0 V c 2 t : Vec Ideal S64x64 .f32) (ix2 k q) = (V c main_arg2 : S64x64.Idx → EReal) (ix2 k q) := by
  obtain ⟨-, -, -, -, e0, e1, -⟩ := idx_facts t
  unfold iblk0
  rw [View.read_apply]
  show V c main_arg2 _ = V c main_arg2 _
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem iblk_wr (c : Dev nD) (t : Fin cfg0.N) (k q : Fin 64) :
    (iblk0 V c 3 t : Vec Ideal S64x64 .f32) (ix2 k q) = (V c main_arg3 : S64x64.Idx → EReal) (ix2 k q) := by
  obtain ⟨-, -, -, -, -, -, e0, e1, -⟩ := idx_facts t
  unfold iblk0
  rw [View.read_apply]
  show V c main_arg3 _ = V c main_arg3 _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 64 + 1 * q.val = q.val; rw [e1]; omega

theorem iblk_b (c : Dev nD) (t : Fin cfg0.N) (q : Fin 64) :
    (iblk0 V c 4 t : Vec Ideal S1x64 .f32) (ix2 (0 : Fin 1) q) = (V c main_v23 : S1x64.Idx → EReal) (ix2 (0 : Fin 1) q) := by
  obtain ⟨-, -, -, -, -, -, -, -, e0, e1, -⟩ := idx_facts t
  unfold iblk0
  rw [View.read_apply]
  show V c main_v23 _ = V c main_v23 _
  refine congrArg _ (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- The hidden block of point t at (p, q) is the layer's value at row 5000·t + p. -/
theorem hidden_eq (c : Dev nD) (b : FVec Ideal S64 .f32)
    (hb : ∀ q : Fin 64, (V c main_v23 : S1x64.Idx → EReal) (ix2 (0 : Fin 1) q) = b (ix1 q))
    (t : Fin cfg0.N) (p : Fin 5000) (q : Fin 64) :
    hiddenAt (iblk0 V c 0 t) (iblk0 V c 1 t) (iblk0 V c 2 t) (iblk0 V c 3 t) (iblk0 V c 4 t) p q
      = Cert.Sage.layerRef (F := Ideal) (V c main_v22) (V c main_arg0) (V c main_arg2) (V c main_arg3) b (ix2 (row t p) q) := by
  refine Eq.trans ?_ (Cert.Sage.layerRef_apply (V c main_v22) (V c main_arg0) (V c main_arg2) (V c main_arg3) b (row t p) q).symm
  unfold hiddenAt
  refine congrArg (max · (0 : EReal)) ?_
  refine congrArg₂ (· + ·) (congrArg₂ (· + ·) (Finset.sum_congr rfl fun k _ => ?_) (Finset.sum_congr rfl fun k _ => ?_)) ?_
  · exact congrArg₂ (· * ·) (iblk_agg V c t p k) (iblk_wl V c t k q)
  · exact congrArg₂ (· * ·) (iblk_x V c t p k) (iblk_wr V c t k q)
  · exact (iblk_b V c t q).trans (hb q)

/-- WHAT POINT t WRITES BACK is block t of the layer's function of the arrays the region finds. -/
theorem flushed_eq (c : Dev nD) (b : FVec Ideal S64 .f32)
    (hb : ∀ q : Fin 64, (V c main_v23 : S1x64.Idx → EReal) (ix2 (0 : Fin 1) q) = b (ix1 q)) (t : Fin cfg0.N) :
    (dat0 V c).flushed 5 t = ((cfg0.win 5).blk t).view.read (Elt Ideal)
      (Cert.Sage.layerRef (F := Ideal) (V c main_v22) (V c main_arg0) (V c main_arg2) (V c main_arg3) b) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  obtain ⟨-, -, -, -, -, -, -, -, -, -, e0, e1⟩ := idx_facts t
  have he : ((cfg0.win 5).blk t).view.emb (ix2 p q) = (ix2 (row t p) q : S100000x64.Idx) := funext fun a => Fin.ext (by
    match a with
    | ⟨0, _⟩ => show win0_5.index t (0 : Fin 2) * 5000 + 1 * p.val = t.val * 5000 + p.val; rw [e0]; omega
    | ⟨1, _⟩ => show win0_5.index t (1 : Fin 2) * 64 + 1 * q.val = q.val; rw [e1]; omega)
  rw [View.read_apply, he]
  exact (k0_pay1_apply (iblk0 V c 0 t) (iblk0 V c 1 t) (iblk0 V c 2 t) (iblk0 V c 3 t) (iblk0 V c 4 t) p q).trans
    (hidden_eq V c b hb t p q)

/-- An index of the array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Row r lies in the block of point r / 5000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- THE OUTPUT ARRAY after the region: the layer's function of the arrays the region finds. -/
theorem final (c : Dev nD) (b : FVec Ideal S64 .f32)
    (hb : ∀ q : Fin 64, (V c main_v23 : S1x64.Idx → EReal) (ix2 (0 : Fin 1) q) = b (ix1 q)) :
    (dat0 V c).arrAt 5 cfg0.N
      = Cert.Sage.layerRef (F := Ideal) (V c main_v22) (V c main_arg0) (V c main_arg2) (V c main_arg3) b :=
  (dat0 V c).arrAt_eq_of_cover 5 _ (fun t _ => flushed_eq V c b hb t) cover

end Cert.KernelIdeal.Region0

end
-- ==== Proof.Region1.lean ====
/-
  The second layer's region with the classifier: what its output array holds after the run, as ONE function of
  the arrays the region finds — whatever they are.

  Point t of the 20 reads rows 5000·t … 5000·t + 4999 of the second aggregate and of the hidden features, the whole
  weights, bias row, classifier column [64,1] and classifier bias [1,1], and writes back rows 5000·t … of the
  [100000,1] output.  At (p, 0) the block written is  Σ_j h[5000·t + p, j]·Wc[j,0] + bc , h the layer's value at
  that row: each hidden entry of the block is the whole-array layer at row 5000·t + p, so the classifier's sum over
  the block's row is the whole-array classifier at that row.  The row blocks tile the rows.
-/
import proofs.«133086_j77498389889594_1_alg».proof.Proof.Gen.KernelIdeal.Frame
import proofs.«133086_j77498389889594_1_alg».proof.Proof.Payload
import proofs.«133086_j77498389889594_1_alg».proof.Proof.RefSpec

set_option maxRecDepth 16384

noncomputable section

namespace Cert.KernelIdeal.Region1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the whole-array windows at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 20 := lt_of_lt_of_eq t.isLt N_1

/-- Row p of point t's block is row 5000·t + p of the array. -/
abbrev row (t : Fin cfg1.N) (p : Fin 5000) : Fin 100000 := ⟨t.val * 5000 + p.val, by have := t_lt t; have := p.isLt; omega⟩

theorem iblk_agg (c : Dev nD) (t : Fin cfg1.N) (p : Fin 5000) (k : Fin 64) :
    (iblk1 V c 0 t : Vec Ideal S5000x64 .f32) (ix2 p k) = (V c main_v43 : S100000x64.Idx → EReal) (ix2 (row t p) k) := by
  obtain ⟨e0, e1, -⟩ := idx_facts t
  unfold iblk1
  rw [View.read_apply]
  show V c main_v43 _ = V c main_v43 _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem iblk_x (c : Dev nD) (t : Fin cfg1.N) (p : Fin 5000) (k : Fin 64) :
    (iblk1 V c 1 t : Vec Ideal S5000x64 .f32) (ix2 p k) = (V c main_v24 : S100000x64.Idx → EReal) (ix2 (row t p) k) := by
  obtain ⟨-, -, e0, e1, -⟩ := idx_facts t
  unfold iblk1
  rw [View.read_apply]
  show V c main_v24 _ = V c main_v24 _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

theorem iblk_wl (c : Dev nD) (t : Fin cfg1.N) (k q : Fin 64) :
    (iblk1 V c 2 t : Vec Ideal S64x64 .f32) (ix2 k q) = (V c main_arg5 : S64x64.Idx → EReal) (ix2 k q) := by
  obtain ⟨-, -, -, -, e0, e1, -⟩ := idx_facts t
  unfold iblk1
  rw [View.read_apply]
  show V c main_arg5 _ = V c main_arg5 _
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

theorem iblk_wr (c : Dev nD) (t : Fin cfg1.N) (k q : Fin 64) :
    (iblk1 V c 3 t : Vec Ideal S64x64 .f32) (ix2 k q) = (V c main_arg6 : S64x64.Idx → EReal) (ix2 k q) := by
  obtain ⟨-, -, -, -, -, -, e0, e1, -⟩ := idx_facts t
  unfold iblk1
  rw [View.read_apply]
  show V c main_arg6 _ = V c main_arg6 _
  refine congrArg _ (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

theorem iblk_b (c : Dev nD) (t : Fin cfg1.N) (q : Fin 64) :
    (iblk1 V c 4 t : Vec Ideal S1x64 .f32) (ix2 (0 : Fin 1) q) = (V c main_v44 : S1x64.Idx → EReal) (ix2 (0 : Fin 1) q) := by
  obtain ⟨-, -, -, -, -, -, -, -, e0, e1, -⟩ := idx_facts t
  unfold iblk1
  rw [View.read_apply]
  show V c main_v44 _ = V c main_v44 _
  refine congrArg _ (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

theorem iblk_wc (c : Dev nD) (t : Fin cfg1.N) (j : Fin 64) (q : Fin 1) :
    (iblk1 V c 5 t : Vec Ideal S64x1 .f32) (ix2 j q) = (V c main_arg8 : S64x1.Idx → EReal) (ix2 j q) := by
  obtain ⟨-, -, -, -, -, -, -, -, -, -, e0, e1, -⟩ := idx_facts t
  unfold iblk1
  rw [View.read_apply]
  show V c main_arg8 _ = V c main_arg8 _
  refine congrArg _ (funext fun a => Fin.ext ?_)
  match a with
  | ⟨0, _⟩ => show win1_5.index t (0 : Fin 2) * 64 + 1 * j.val = j.val; rw [e0]; omega
  | ⟨1, _⟩ => show win1_5.index t (1 : Fin 2) * 1 + 1 * q.val = q.val; rw [e1]; omega

theorem iblk_bc (c : Dev nD) (t : Fin cfg1.N) :
    (iblk1 V c 6 t : Vec Ideal S1x1 .f32) (ix2 (0 : Fin 1) (0 : Fin 1)) = (V c main_v45 : S1x1.Idx → EReal) (ix2 (0 : Fin 1) (0 : Fin 1)) := by
  obtain ⟨-, -, -, -, -, -, -, -, -, -, -, -, e0, e1, -⟩ := idx_facts t
  unfold iblk1
  rw [View.read_apply]
  show V c main_v45 _ = V c main_v45 _
  refine congrArg _ (funext fun a => Fin.ext ?_)
  match a with
  | ⟨0, _⟩ => show win1_6.index t (0 : Fin 2) * 1 + 1 * 0 = 0; rw [e0]
  | ⟨1, _⟩ => show win1_6.index t (1 : Fin 2) * 1 + 1 * 0 = 0; rw [e1]

/-- The hidden block of point t at (p, q) is the layer's value at row 5000·t + p. -/
theorem hidden_eq (c : Dev nD) (b : FVec Ideal S64 .f32)
    (hb : ∀ q : Fin 64, (V c main_v44 : S1x64.Idx → EReal) (ix2 (0 : Fin 1) q) = b (ix1 q))
    (t : Fin cfg1.N) (p : Fin 5000) (q : Fin 64) :
    hiddenAt (iblk1 V c 0 t) (iblk1 V c 1 t) (iblk1 V c 2 t) (iblk1 V c 3 t) (iblk1 V c 4 t) p q
      = Cert.Sage.layerRef (F := Ideal) (V c main_v43) (V c main_v24) (V c main_arg5) (V c main_arg6) b (ix2 (row t p) q) := by
  refine Eq.trans ?_ (Cert.Sage.layerRef_apply (V c main_v43) (V c main_v24) (V c main_arg5) (V c main_arg6) b (row t p) q).symm
  unfold hiddenAt
  refine congrArg (max · (0 : EReal)) ?_
  refine congrArg₂ (· + ·) (congrArg₂ (· + ·) (Finset.sum_congr rfl fun k _ => ?_) (Finset.sum_congr rfl fun k _ => ?_)) ?_
  · exact congrArg₂ (· * ·) (iblk_agg V c t p k) (iblk_wl V c t k q)
  · exact congrArg₂ (· * ·) (iblk_x V c t p k) (iblk_wr V c t k q)
  · exact (iblk_b V c t q).trans (hb q)

/-- WHAT POINT t WRITES BACK is block t of the classifier of the layer's function of the arrays the region finds. -/
theorem flushed_eq (c : Dev nD) (b : FVec Ideal S64 .f32) (bc : FVec Ideal S1 .f32)
    (hb : ∀ q : Fin 64, (V c main_v44 : S1x64.Idx → EReal) (ix2 (0 : Fin 1) q) = b (ix1 q))
    (hbc : (V c main_v45 : S1x1.Idx → EReal) (ix2 (0 : Fin 1) (0 : Fin 1)) = bc (ix1 (0 : Fin 1))) (t : Fin cfg1.N) :
    (dat1 V c).flushed 7 t = ((cfg1.win 7).blk t).view.read (Elt Ideal)
      (Cert.Sage.clsRef (F := Ideal) (Cert.Sage.layerRef (F := Ideal) (V c main_v43) (V c main_v24) (V c main_arg5) (V c main_arg6) b) (V c main_arg8) bc) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  funext y
  obtain ⟨p, q, rfl⟩ : ∃ (p : Fin 5000) (q : Fin 1), y = ix2 p q := ⟨y 0, y 1, eq_ix2 y⟩
  obtain ⟨-, -, -, -, -, -, -, -, -, -, -, -, -, -, e0, e1⟩ := idx_facts t
  have hq : q.val = 0 := by have := q.isLt; omega
  have he : ((cfg1.win 7).blk t).view.emb (ix2 p q) = (ix2 (row t p) q : S100000x1.Idx) := funext fun a => Fin.ext (by
    match a with
    | ⟨0, _⟩ => show win1_7.index t (0 : Fin 2) * 5000 + 1 * p.val = t.val * 5000 + p.val; rw [e0]; omega
    | ⟨1, _⟩ => show win1_7.index t (1 : Fin 2) * 1 + 1 * q.val = q.val; rw [e1]; omega)
  rw [View.read_apply, he]
  refine (k1_pay1_apply (iblk1 V c 0 t) (iblk1 V c 1 t) (iblk1 V c 2 t) (iblk1 V c 3 t) (iblk1 V c 4 t) (iblk1 V c 5 t) (iblk1 V c 6 t) p q).trans ?_
  refine Eq.trans ?_ (Cert.Sage.clsRef_apply _ (V c main_arg8) bc (row t p) q).symm
  refine congrArg₂ (· + ·) (Finset.sum_congr rfl fun j _ => ?_) ?_
  · exact congrArg₂ (· * ·) (hidden_eq V c b hb t p j) (iblk_wc V c t j q)
  · exact (iblk_bc V c t).trans hbc

/-- An index of the array is in point t's block iff each coordinate is in the block's range on its axis. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v46).slice (win1_7.rect t)).set ↔ _
  rw [View.set_slice_whole, Rect.mem_set_unit]
  exact Iff.rfl

/-- Row r lies in the block of point r / 5000. -/
theorem cover (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_7 _, ?_⟩
  rw [mem_blk]
  obtain ⟨-, -, -, -, -, -, -, -, -, -, -, -, -, -, e0, e1⟩ := idx_facts ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 1 ≤ (i 1).val ∧ (i 1).val < win1_7.index _ (1 : Fin 2) * 1 + 1
    rw [e1]; omega

/-- THE OUTPUT ARRAY after the region: the classifier of the layer's function of the arrays the region finds. -/
theorem final (c : Dev nD) (b : FVec Ideal S64 .f32) (bc : FVec Ideal S1 .f32)
    (hb : ∀ q : Fin 64, (V c main_v44 : S1x64.Idx → EReal) (ix2 (0 : Fin 1) q) = b (ix1 q))
    (hbc : (V c main_v45 : S1x1.Idx → EReal) (ix2 (0 : Fin 1) (0 : Fin 1)) = bc (ix1 (0 : Fin 1))) :
    (dat1 V c).arrAt 7 cfg1.N
      = Cert.Sage.clsRef (F := Ideal) (Cert.Sage.layerRef (F := Ideal) (V c main_v43) (V c main_v24) (V c main_arg5) (V c main_arg6) b) (V c main_arg8) bc :=
  (dat1 V c).arrAt_eq_of_cover 7 _ (fun t _ => flushed_eq V c b bc hb hbc t) cover

end Cert.KernelIdeal.Region1

end
-- ==== Proof.HostValue.lean ====
/-
  The kernel program's result as a function of its arguments: the boundary contents walked from the return back to
  the launch.

  The result is the closing reshape of the second region's output array.  That array is the classifier of the
  second layer's function (the second region's value) of what the host stretch before it leaves: the mean aggregate
  of the first layer's output over the edges, the first layer's output itself, and the arguments.  The first
  layer's output is the first region's value of the mean aggregate of the features and the arguments.  Every host
  stretch is the reference's own chain of operations — slice, gather, scatter-add, maximum, divide — so each
  boundary array is the reference's stage of the same name-free function of the arguments; the bias rows reach the
  kernels as [1,64] and [1,1] reshapes, read back at (0, q) as the bias at q.
-/
import proofs.«133086_j77498389889594_1_alg».proof.Proof.Gen.KernelIdeal.Frame
import proofs.«133086_j77498389889594_1_alg».proof.Proof.Region0
import proofs.«133086_j77498389889594_1_alg».proof.Proof.Region1
import proofs.«133086_j77498389889594_1_alg».proof.Proof.RefSpec
import Idealize.ShloMosaic.Lib.ValueLayout
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v22 val_main_v29 val_main_v48 val_main_v55 val_main_v59 val_main_v60)

variable (m : (ℓ : Loc nD τ sig) → Buf (Elt Ideal) ℓ) (ρ : Dev nD → PrngReg)

/-! ## Before the first region -/

/-- The first region finds the mean aggregate of the features over the edges. -/
theorem W1_agg (c : Dev nD) : W1 m ρ c (Proc.devRef .tc main_v22) = val_main_v22 (F := Ideal) (m ((c : Thread nD τ).loc main_arg0)) (m ((c : Thread nD τ).loc main_arg1)) := by
  show StableHlo.after hostOps0 (W0 m ρ c) (Proc.devRef .tc main_v22) = _
  after_results_simp
  rfl

/-- The first region finds the first bias as one row [1,64]. -/
theorem W1_bias (c : Dev nD) : W1 m ρ c (Proc.devRef .tc main_v23) = shapeCast S1x64 (m ((c : Thread nD τ).loc main_arg4)) shapeCasts_S64_S1x64 := by
  show StableHlo.after hostOps0 (W0 m ρ c) (Proc.devRef .tc main_v23) = _
  after_results_simp
  rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp

/-- The two rows of the edge list, cut out before the first region and read again after it. -/
theorem W1_src (c : Dev nD) : W1 m ρ c (Proc.devRef .tc main_v1)
    = shapeCast S1600000 (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results_simp
  rfl
theorem W1_dst (c : Dev nD) : W1 m ρ c (Proc.devRef .tc main_v3)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp
  rfl

theorem W1_arg5 (c : Dev nD) : W1 m ρ c (Proc.devRef .tc main_arg5) = (m ((c : Thread nD τ).loc main_arg5)) := by
  show StableHlo.after hostOps0 (W0 m ρ c) (Proc.devRef .tc main_arg5) = _
  after_results_simp
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp

/-- The first bias row read at (0, q) is the bias at q. -/
theorem bias1_at (c : Dev nD) (q : Fin 64) :
    (V1 m ρ c main_v23 : S1x64.Idx → EReal) (ix2 (0 : Fin 1) q) = ((m ((c : Thread nD τ).loc main_arg4)) : S64.Idx → EReal) (ix1 q) := by
  show (W1 m ρ c (Proc.devRef .tc main_v23) : S1x64.Idx → EReal) (ix2 (0 : Fin 1) q) = _
  rw [W1_bias]
  exact shapeCast_a_1a_apply _ shapeCasts_S64_S1x64 (0 : Fin 1) q

/-! ## The first region's output: the hidden features of the first layer -/

theorem W2_hidden (c : Dev nD) : W2 m ρ c (Proc.devRef .tc main_v24)
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (Region0.final (V1 m ρ) c (m ((c : Thread nD τ).loc main_arg4)) (bias1_at m ρ c)).trans ?_
  show Cert.Sage.layerRef (F := Ideal) (W1 m ρ c (Proc.devRef .tc main_v22)) (W1 m ρ c (Proc.devRef .tc main_arg0))
    (W1 m ρ c (Proc.devRef .tc main_arg2)) (W1 m ρ c (Proc.devRef .tc main_arg3)) _ = _
  rw [W1_agg, W1_arg0, W1_arg2, W1_arg3]
  exact (Cert.Sage.v29_eq _ _ _ _ _).symm

/-! ## Between the regions -/

theorem W2_src (c : Dev nD) : W2 m ρ c (Proc.devRef .tc main_v1)
    = shapeCast S1600000 (extractStridedSlice S1x1600000 ![0, 0] (m ((c : Thread nD τ).loc main_arg1)) slices_S2x1600000_S1x1600000_0_0) shapeCasts_S1x1600000_S1600000 :=
  (W2_of_ne m ρ c main_v1 (by decide)).trans (W1_src m ρ c)
theorem W2_dst (c : Dev nD) : W2 m ρ c (Proc.devRef .tc main_v3)
    = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (W1_dst m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)

/-- The second region finds the mean aggregate of the hidden features over the edges. -/
theorem W3_agg (c : Dev nD) : W3 m ρ c (Proc.devRef .tc main_v43)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v43) = _
  after_results_simp
  rw [W2_hidden, W2_src, W2_dst]
  rfl

theorem W3_hidden (c : Dev nD) : W3 m ρ c (Proc.devRef .tc main_v24)
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact W2_hidden m ρ c
theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  after_results_simp
  exact W2_arg6 m ρ c
theorem W3_arg8 (c : Dev nD) : W3 m ρ c (Proc.devRef .tc main_arg8) = (m ((c : Thread nD τ).loc main_arg8)) := by
  show StableHlo.after hostOps1 (W2 m ρ c) (Proc.devRef .tc main_arg8) = _
  after_results_simp
  exact W2_arg8 m ρ c

theorem W3_bias (c : Dev nD) : W3 m ρ c (Proc.devRef .tc main_v44) = shapeCast S1x64 (m ((c : Thread nD τ).loc main_arg7)) shapeCasts_S64_S1x64 := by
  show StableHlo.after hostOps1 (W2 m ρ c) (Proc.devRef .tc main_v44) = _
  after_results_simp
  rw [W2_arg7]
  rfl
theorem W3_biasc (c : Dev nD) : W3 m ρ c (Proc.devRef .tc main_v45) = shapeCast S1x1 (m ((c : Thread nD τ).loc main_arg9)) shapeCasts_S1_S1x1 := by
  show StableHlo.after hostOps1 (W2 m ρ c) (Proc.devRef .tc main_v45) = _
  after_results_simp
  rw [W2_arg9]
  rfl

theorem bias2_at (c : Dev nD) (q : Fin 64) :
    (V3 m ρ c main_v44 : S1x64.Idx → EReal) (ix2 (0 : Fin 1) q) = ((m ((c : Thread nD τ).loc main_arg7)) : S64.Idx → EReal) (ix1 q) := by
  show (W3 m ρ c (Proc.devRef .tc main_v44) : S1x64.Idx → EReal) (ix2 (0 : Fin 1) q) = _
  rw [W3_bias]
  exact shapeCast_a_1a_apply _ shapeCasts_S64_S1x64 (0 : Fin 1) q
theorem biasc_at (c : Dev nD) :
    (V3 m ρ c main_v45 : S1x1.Idx → EReal) (ix2 (0 : Fin 1) (0 : Fin 1)) = ((m ((c : Thread nD τ).loc main_arg9)) : S1.Idx → EReal) (ix1 (0 : Fin 1)) := by
  show (W3 m ρ c (Proc.devRef .tc main_v45) : S1x1.Idx → EReal) (ix2 (0 : Fin 1) (0 : Fin 1)) = _
  rw [W3_biasc]
  exact shapeCast_a_1a_apply _ shapeCasts_S1_S1x1 (0 : Fin 1) (0 : Fin 1)

/-! ## The second region's output and the result -/

theorem W4_logits (c : Dev nD) : W4 m ρ c (Proc.devRef .tc main_v46)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  refine (Region1.final (V3 m ρ) c (m ((c : Thread nD τ).loc main_arg7)) (m ((c : Thread nD τ).loc main_arg9)) (bias2_at m ρ c) (biasc_at m ρ c)).trans ?_
  show Cert.Sage.clsRef (F := Ideal) (Cert.Sage.layerRef (F := Ideal) (W3 m ρ c (Proc.devRef .tc main_v43)) (W3 m ρ c (Proc.devRef .tc main_v24))
    (W3 m ρ c (Proc.devRef .tc main_arg5)) (W3 m ρ c (Proc.devRef .tc main_arg6)) _) (W3 m ρ c (Proc.devRef .tc main_arg8)) _ = _
  rw [W3_agg, W3_hidden, W3_arg5, W3_arg6, W3_arg8]
  rw [Cert.Sage.v59_eq, Cert.Sage.v55_eq]

/-- THE RESULT: the kernel program's result array is the reference's last stage of the arguments. -/
theorem result (c : Dev nD) : W5 m ρ c (Proc.devRef .tc main_v47)
    = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v47) = _
  after_results_simp
  rw [W4_logits]
  rfl

end Cert.KernelIdeal.HostValue

end
-- ==== Proof.lean ====
/-
  GraphSAGE, two mean-aggregating layers and a linear classifier, on 100000 nodes with 64 features and 1600000 edges:
  the kernel program against its jnp reference, equal over the extended reals.

  Both programs compute, per layer,  relu (mean_agg(h) · Wl + h · Wr + b)  and at the end  h · Wc + bc , the mean
  aggregate being the same chain of host operations in both (gather the source rows, scatter-add them into the
  destination rows, divide by the clamped in-degree).  The kernel program runs the dense part of each layer as a
  region over 20 row blocks of 5000 rows; a row block's matrix products are the whole products restricted to those
  rows, so each region's output array is the reference's layer function of the arrays the region finds
  (Region0, Region1 over Payload and RefSpec), and walking the boundary contents back to the launch gives the
  result as the reference's last stage of the arguments (HostValue, over the run of KernelRun).  No law of the
  extended reals beyond reading both sides' sums at the same indices is used, so the precondition is not opened.
  The kernel's idealization is its own text read over the extended reals (no operation was rewritten), so the
  preservation conjunct is trivial.
-/
import proofs.«133086_j77498389889594_1_alg».proof.Defs
import proofs.«133086_j77498389889594_1_alg».proof.Proof.Gen.Kernel
import proofs.«133086_j77498389889594_1_alg».proof.Proof.Gen.Kernel.Frame
import proofs.«133086_j77498389889594_1_alg».proof.Proof.Gen.KernelIdeal
import proofs.«133086_j77498389889594_1_alg».proof.Proof.Gen.KernelIdeal.Frame
import proofs.«133086_j77498389889594_1_alg».proof.Proof.Gen.ReferenceIdeal
import proofs.«133086_j77498389889594_1_alg».proof.Proof.Gen.ReferenceIdeal.Run
import proofs.«133086_j77498389889594_1_alg».proof.Proof.Gen.ReferenceIdeal.Read
import proofs.«133086_j77498389889594_1_alg».proof.Proof.Gen.Pre_finite_inputs
import proofs.«133086_j77498389889594_1_alg».proof.Proof.KernelRun
import proofs.«133086_j77498389889594_1_alg».proof.Proof.HostValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostValue.result m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v60_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
